-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x64 : Shape := ⟨3, ![64, 16384, 64]⟩
abbrev S64x1 : Shape := ⟨2, ![64, 1]⟩
abbrev S1 : Shape := ⟨1, ![1]⟩
abbrev S1x1 : Shape := ⟨2, ![1, 1]⟩
abbrev S_ : Shape := ⟨0, ![]⟩

class Facts : Prop where
  bcast_S_S64x16384x64 : S_.BroadcastsInDim S64x16384x64 (![] : Fin 0 → Fin S64x16384x64.rank)
  reducesTo_S64x16384x64_S_d0_1_2 : S64x16384x64.ReducesTo [0, 1, 2] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x1 .f32) (main_arg5 : FVec F S1 .f32) (main_arg6 : FVec F S1x1 .f32) (main_arg7 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x1 .f32 := Host.absf main_arg6
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  fn_part2 (F := F) main_arg7 main_v33

def fn {F : FTy → Type} [FloatOps F] (main_arg0 : FVec F S64x16384x64 .f32) (main_arg1 : FVec F S64x16384x64 .f32) (main_arg2 : FVec F S64x1 .f32) (main_arg3 : FVec F S1 .f32) (main_arg4 : FVec F S64x1 .f32) (main_arg5 : FVec F S1 .f32) (main_arg6 : FVec F S1x1 .f32) (main_arg7 : FVec F S1 .f32) : IVec S_ 1 :=
  let main_v0 : FVec F S64x16384x64 .f32 := Host.absf main_arg0
  let main_cst : FVec F S_ .f32 := constant S_ .f32 0x7F800000#32
  let main_v1 : FVec F S64x16384x64 .f32 := broadcastInDim S64x16384x64 ![] bcast_S_S64x16384x64 main_cst
  let main_v2 : IVec S64x16384x64 1 := cmpf .olt main_v0 main_v1
  let main_c : IVec S_ 1 := constantI S_ 1 1#1
  let main_v3 : IVec S_ 1 := (fun x v => Host.reduce IntOp.andi x v reducesTo_S64x16384x64_S_d0_1_2 h_S_) main_v2 main_c
  let main_v4 : FVec F S64x16384x64 .f32 := Host.absf main_arg1
  let main_cst_0 : FVec F S_ .f32 := constant S_ .f32 0x7F800000#32
  let main_v5 : FVec F S64x16384x64 .f32 := broadcastInDim S64x16384x64 ![] bcast_S_S64x16384x64 main_cst_0
  let main_v6 : IVec S64x16384x64 1 := cmpf .olt main_v4 main_v5
  let main_c_1 : IVec S_ 1 := constantI S_ 1 1#1
  let main_v7 : IVec S_ 1 := (fun x v => Host.reduce IntOp.andi x v reducesTo_S64x16384x64_S_d0_1_2 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_v13 main_v16
-- ==== Kernel.lean ====
abbrev S64x16384x64 : Shape := ⟨3, ![64, 16384, 64]⟩
abbrev S64x1 : Shape := ⟨2, ![64, 1]⟩
abbrev S1 : Shape := ⟨1, ![1]⟩
abbrev S1x1 : Shape := ⟨2, ![1, 1]⟩
abbrev S1048576x64 : Shape := ⟨2, ![1048576, 64]⟩
abbrev S1048576x1 : Shape := ⟨2, ![1048576, 1]⟩
abbrev S32768x64 : Shape := ⟨2, ![32768, 64]⟩
abbrev S32768x1 : Shape := ⟨2, ![32768, 1]⟩
abbrev S64x16384x1 : Shape := ⟨3, ![64, 16384, 1]⟩

abbrev nBuf : Space → Nat
  | .hbm => 12
  | .vmem => 12
  | .smem => 0
  | _ => 0

abbrev bufTy : (tb : Table) → Fin (tcTables nBuf tb) → BufTy
  | .hbm, ⟨0, _⟩ => ⟨S64x16384x64, .f32⟩
  | .hbm, ⟨1, _⟩ => ⟨S64x16384x64, .f32⟩
  | .hbm, ⟨2, _⟩ => ⟨S64x1, .f32⟩
  | .hbm, ⟨3, _⟩ => ⟨S1, .f32⟩
  | .hbm, ⟨4, _⟩ => ⟨S64x1, .f32⟩
  | .hbm, ⟨5, _⟩ => ⟨S1, .f32⟩
  | .hbm, ⟨6, _⟩ => ⟨S1x1, .f32⟩
  | .hbm, ⟨7, _⟩ => ⟨S1, .f32⟩
  | .hbm, ⟨8, _⟩ => ⟨S1048576x64, .f32⟩
  | .hbm, ⟨9, _⟩ => ⟨S1048576x64, .f32⟩
  | .hbm, ⟨10, _⟩ => ⟨S1048576x1, .f32⟩
  | .hbm, ⟨11, _⟩ => ⟨S64x16384x1, .f32⟩
  | .local _ .vmem, ⟨0, _⟩ => ⟨S32768x64, .f32⟩
  | .local _ .vmem, ⟨1, _⟩ => ⟨S32768x64, .f32⟩
  | .local _ .vmem, ⟨2, _⟩ => ⟨S32768x64, .f32⟩
  | .local _ .vmem, ⟨3, _⟩ => ⟨S32768x64, .f32⟩
  | .local _ .vmem, ⟨4, _⟩ => ⟨S64x1, .f32⟩
  | .local _ .vmem, ⟨5, _⟩ => ⟨S1, .f32⟩
  | .local _ .vmem, ⟨6, _⟩ => ⟨S64x1, .f32⟩
  | .local _ .vmem, ⟨7, _⟩ => ⟨S1, .f32⟩
  | .local _ .vmem, ⟨8, _⟩ => ⟨S1x1, .f32⟩
  | .local _ .vmem, ⟨9, _⟩ => ⟨S1, .f32⟩
  | .local _ .vmem, ⟨10, _⟩ => ⟨S32768x1, .f32⟩
  | .local _ .vmem, ⟨11, _⟩ => ⟨S32768x1, .f32⟩
  | _, _ => ⟨S64x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32768x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x16384x64_S1048576x64 : S64x16384x64.ShapeCasts S1048576x64
  inb_S32768x64_S32768x64_0_0 : ∀ a, (![0, 0] : Fin 2 → Nat) a + S32768x64.size a ≤ S32768x64.size a
  h_S32768x64 : 0 < S32768x64.numel
  shapeCasts_S32768x64_S32768x64 : S32768x64.ShapeCasts S32768x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  inpos_S1_p0 : ∀ a, (![0] : Fin 1 → Nat) a < S1.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S32768x1_S32768x1_0_0 : ∀ a, (![0, 0] : Fin 2 → Nat) a + S32768x1.size a ≤ S32768x1.size a
  h_S32768x1 : 0 < S32768x1.numel
  shapeCasts_S1048576x1_S64x16384x1 : S1048576x1.ShapeCasts S64x16384x1
  dot_S32768x64_S64x1_S32768x1_1_0_0_1_n_n_wf : DotDims.WF S32768x64 S64x1 S32768x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x64.size a ≤ S1048576x64.size a
  hwx0_0 : ∀ i : grid0.Coords, EltTy.bits .f32 = 32 ∨ (Rect.block (s := S1048576x64) S32768x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768x64.size a ≤ S1048576x64.size a
  hwx0_1 : ∀ i : grid0.Coords, EltTy.bits .f32 = 32 ∨ (Rect.block (s := S1048576x64) S32768x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32768x1.size a ≤ S1048576x1.size a
  hwx0_8 : ∀ i : grid0.Coords, EltTy.bits .f32 = 32 ∨ (Rect.block (s := S1048576x1) S32768x1.size (cc0_transform_8 i) (hinb0_8 i)).WholeWords (EltTy.packing .f32)

variable [Facts₀]

def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

abbrev win0_0 : Pipeline.Window sig grid0 :=
  Pipeline.Window.ofSpec (Memref.whole main_v0) S32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32768x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S32768x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x16384x64 : Shape := ⟨3, ![64, 16384, 64]⟩
abbrev S64x1 : Shape := ⟨2, ![64, 1]⟩
abbrev S1 : Shape := ⟨1, ![1]⟩
abbrev S1x1 : Shape := ⟨2, ![1, 1]⟩
abbrev S64x16384x1 : Shape := ⟨3, ![64, 16384, 1]⟩
abbrev S1x1x1 : Shape := ⟨3, ![1, 1, 1]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S64x16384x64, .f32⟩
  | .hbm, ⟨1, _⟩ => ⟨S64x16384x64, .f32⟩
  | .hbm, ⟨2, _⟩ => ⟨S64x1, .f32⟩
  | .hbm, ⟨3, _⟩ => ⟨S1, .f32⟩
  | .hbm, ⟨4, _⟩ => ⟨S64x1, .f32⟩
  | .hbm, ⟨5, _⟩ => ⟨S1, .f32⟩
  | .hbm, ⟨6, _⟩ => ⟨S1x1, .f32⟩
  | .hbm, ⟨7, _⟩ => ⟨S1, .f32⟩
  | .hbm, ⟨8, _⟩ => ⟨S64x16384x1, .f32⟩
  | .hbm, ⟨9, _⟩ => ⟨S1x1x1, .f32⟩
  | .hbm, ⟨10, _⟩ => ⟨S64x16384x1, .f32⟩
  | .hbm, ⟨11, _⟩ => ⟨S64x16384x1, .f32⟩
  | .hbm, ⟨12, _⟩ => ⟨S64x16384x1, .f32⟩
  | .hbm, ⟨13, _⟩ => ⟨S1x1x1, .f32⟩
  | .hbm, ⟨14, _⟩ => ⟨S64x16384x1, .f32⟩
  | .hbm, ⟨15, _⟩ => ⟨S64x16384x1, .f32⟩
  | .hbm, ⟨16, _⟩ => ⟨S64x16384x1, .f32⟩
  | .hbm, ⟨17, _⟩ => ⟨S_, .f32⟩
  | .hbm, ⟨18, _⟩ => ⟨S64x16384x1, .f32⟩
  | .hbm, ⟨19, _⟩ => ⟨S64x16384x1, .i1⟩
  | .hbm, ⟨20, _⟩ => ⟨S_, .f32⟩
  | .hbm, ⟨21, _⟩ => ⟨S64x16384x1, .f32⟩
  | .hbm, ⟨22, _⟩ => ⟨S64x16384x1, .f32⟩
  | .hbm, ⟨23, _⟩ => ⟨S64x16384x1, .f32⟩
  | .hbm, ⟨24, _⟩ => ⟨S_, .f32⟩
  | .hbm, ⟨25, _⟩ => ⟨S64x16384x1, .f32⟩
  | .hbm, ⟨26, _⟩ => ⟨S64x16384x1, .f32⟩
  | .hbm, ⟨27, _⟩ => ⟨S_, .f32⟩
  | .hbm, ⟨28, _⟩ => ⟨S64x16384x1, .f32⟩
  | .hbm, ⟨29, _⟩ => ⟨S64x16384x1, .f32⟩
  | .hbm, ⟨30, _⟩ => ⟨S64x16384x1, .f32⟩
  | .hbm, ⟨31, _⟩ => ⟨S64x16384x1, .f32⟩
  | .hbm, ⟨32, _⟩ => ⟨S_, .f32⟩
  | .hbm, ⟨33, _⟩ => ⟨S64x16384x1, .f32⟩
  | .hbm, ⟨34, _⟩ => ⟨S64x16384x1, .f32⟩
  | .hbm, ⟨35, _⟩ => ⟨S_, .f32⟩
  | .hbm, ⟨36, _⟩ => ⟨S64x16384x1, .f32⟩
  | .hbm, ⟨37, _⟩ => ⟨S64x16384x1, .f32⟩
  | .hbm, ⟨38, _⟩ => ⟨S64x16384x1, .f32⟩
  | _, _ => ⟨S64x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S64x16384x1_0_1_2 : S1x1x1.BroadcastsInDim S64x16384x1 (![0, 1, 2] : Fin 3 → Fin S64x16384x1.rank)
  bcast_S_S64x16384x1 : S_.BroadcastsInDim S64x16384x1 (![] : Fin 0 → Fin S64x16384x1.rank)
  shapeCasts_S1x1_S_ : S1x1.ShapeCasts S_
  shapeCasts_S1_S_ : S1.ShapeCasts S_
  dot_S64x16384x64_S64x1_S64x16384x1_2_0_01_1_n_n_wf : DotDims.WF S64x16384x64 S64x1 S64x16384x1 [2] [0] [0, 1] [1] [] []

variable [Facts₀]

def dot_S64x16384x64_S64x1_S64x16384x1_2_0_01_1_n_n : DotDims S64x16384x64 S64x1 S64x16384x1 where
  lhsContracting := [2]
  rhsContracting := [0]
  lhsNonContracting := [0, 1]
  rhsNonContracting := [1]
  lhsBatch := []
  rhsBatch := []
  wf := dot_S64x16384x64_S64x1_S64x16384x1_2_0_01_1_n_n_wf

class Facts : Prop extends Facts₀ where

variable [Facts]
-- ==== Proof.GateSpec.lean ====
/-
  The gated projection, as mathematics.

  Two inputs hold 64 × 16384 rows of 64 lanes each. Every row of the first is projected onto one column of weights
  and shifted by a bias (xa); the matching row of the second likewise with its own weights and bias (xs). Their sum
  h passes a leaky rectifier (h where 0 ≤ h, else 0.3f · h), is scaled by one weight, shifted by one bias and sent
  through the logistic function; the result gates xs. One output number per row.

  The same rows can be counted by two coordinates (p, l) with p < 64, l < 16384, or by the one coordinate
  R = p · 16384 + l < 1048576; the specification is stated in both countings, and they agree row by row.
  Everything is on the extended reals, where sums and products of the kind used here need no finiteness:
  both programs compute the same expression tree, entry by entry.
-/
import Idealize.ShloMosaic.PureOps.Ideal
import Idealize.ShloMosaic.Lib.ValueIdx

noncomputable section

namespace Cert.Gate

open Idealize.ShloMosaic Idealize.ShloMosaic.ValueIdx

/-- The gate of one row from its two projections xa, xs and the scalars w2, b2:
    logistic(leaky(xa + xs) · w2 + b2) · xs, with leaky(h) = h if 0 ≤ h and 0.3f · h otherwise
    (0.3f the single-precision number nearest 0.3, the same word in both programs). -/
def gate (xa xs w2 b2 : EReal) : EReal :=
  Ideal.logistic (Scalar.select (Ideal.cmp .oge (xa + xs) (Ideal.ofBits .f32 0x00000000#32)) (xa + xs)
      (Ideal.ofBits .f32 0x3E99999A#32 * (xa + xs)) * w2 + b2) * xs

/-- A row of 64 lanes against a column of 64 weights, plus the bias: Σ k, row k · w (k, 0) + b 0. -/
def proj (row : Fin 64 → EReal) (w : FVec Ideal ⟨2, ![64, 1]⟩ .f32) (b : FVec Ideal ⟨1, ![1]⟩ .f32) : EReal :=
  (∑ k : Fin 64, row k * w (ix2 k 0)) + b (ix1 0)

/-- The result for row r of an N-row table of rows (N = 32768 for one block, 1048576 for the whole array). -/
def rowGate {N : ℕ} (X0 X1 : FVec Ideal ⟨2, ![N, 64]⟩ .f32) (wa : FVec Ideal ⟨2, ![64, 1]⟩ .f32) (ba : FVec Ideal ⟨1, ![1]⟩ .f32)
    (ws : FVec Ideal ⟨2, ![64, 1]⟩ .f32) (bs : FVec Ideal ⟨1, ![1]⟩ .f32) (w2 : FVec Ideal ⟨2, ![1, 1]⟩ .f32) (b2 : FVec Ideal ⟨1, ![1]⟩ .f32)
    (r : Fin N) : EReal :=
  gate (proj (fun k => X0 (ix2 r k)) wa ba) (proj (fun k => X1 (ix2 r k)) ws bs) (w2 (ix2 0 0)) (b2 (ix1 0))

/-- The whole result counted by one row coordinate: a column [1048576, 1]. -/
def flat (X0 X1 : FVec Ideal ⟨2, ![1048576, 64]⟩ .f32) (wa : FVec Ideal ⟨2, ![64, 1]⟩ .f32) (ba : FVec Ideal ⟨1, ![1]⟩ .f32)
    (ws : FVec Ideal ⟨2, ![64, 1]⟩ .f32) (bs : FVec Ideal ⟨1, ![1]⟩ .f32) (w2 : FVec Ideal ⟨2, ![1, 1]⟩ .f32) (b2 : FVec Ideal ⟨1, ![1]⟩ .f32) :
    FVec Ideal ⟨2, ![1048576, 1]⟩ .f32 :=
  fun i => rowGate X0 X1 wa ba ws bs w2 b2 (i 0)

/-- The whole result counted by two row coordinates: [64, 16384, 1]. -/
def batched (x0 x1 : FVec Ideal ⟨3, ![64, 16384, 64]⟩ .f32) (wa : FVec Ideal ⟨2, ![64, 1]⟩ .f32) (ba : FVec Ideal ⟨1, ![1]⟩ .f32)
    (ws : FVec Ideal ⟨2, ![64, 1]⟩ .f32) (bs : FVec Ideal ⟨1, ![1]⟩ .f32) (w2 : FVec Ideal ⟨2, ![1, 1]⟩ .f32) (b2 : FVec Ideal ⟨1, ![1]⟩ .f32) :
    FVec Ideal ⟨3, ![64, 16384, 1]⟩ .f32 :=
  fun i => gate (proj (fun k => x0 (ix3 (i 0) (i 1) k)) wa ba) (proj (fun k => x1 (ix3 (i 0) (i 1) k)) ws bs) (w2 (ix2 0 0)) (b2 (ix1 0))

/-- Reading the flat result at row r. -/
theorem flat_apply (X0 X1 : FVec Ideal ⟨2, ![1048576, 64]⟩ .f32) (wa : FVec Ideal ⟨2, ![64, 1]⟩ .f32) (ba : FVec Ideal ⟨1, ![1]⟩ .f32)
    (ws : FVec Ideal ⟨2, ![64, 1]⟩ .f32) (bs : FVec Ideal ⟨1, ![1]⟩ .f32) (w2 : FVec Ideal ⟨2, ![1, 1]⟩ .f32) (b2 : FVec Ideal ⟨1, ![1]⟩ .f32)
    (r : Fin 1048576) (z : Fin 1) : flat X0 X1 wa ba ws bs w2 b2 (ix2 r z) = rowGate X0 X1 wa ba ws bs w2 b2 r := rfl

/-- Reading the batched result at row (p, l). -/
theorem batched_apply (x0 x1 : FVec Ideal ⟨3, ![64, 16384, 64]⟩ .f32) (wa : FVec Ideal ⟨2, ![64, 1]⟩ .f32) (ba : FVec Ideal ⟨1, ![1]⟩ .f32)
    (ws : FVec Ideal ⟨2, ![64, 1]⟩ .f32) (bs : FVec Ideal ⟨1, ![1]⟩ .f32) (w2 : FVec Ideal ⟨2, ![1, 1]⟩ .f32) (b2 : FVec Ideal ⟨1, ![1]⟩ .f32)
    (p : Fin 64) (l : Fin 16384) (z : Fin 1) :
    batched x0 x1 wa ba ws bs w2 b2 (ix3 p l z)
      = gate (proj (fun k => x0 (ix3 p l k)) wa ba) (proj (fun k => x1 (ix3 p l k)) ws bs) (w2 (ix2 0 0)) (b2 (ix1 0)) := rfl

end Cert.Gate

end
-- ==== Proof.LibRowBatch.lean ====
/-
  A row-batched array and its flattening, read at an index.

  An array [a, b, n] holds a * b rows of n lanes; its reshape to a matrix [N, n] with N = a * b holds the same rows in
  the same order: row (p, s) of the array is row p * b + s of the matrix, lane by lane. The row-major position of
  (p, s, k) in [a, b, n] is (p * b + s) * n + k, and that of (R, k) in [N, n] is R * n + k, so the two reshapes (matrix
  from array, array from matrix) each read the one element with the same row and lane.
-/
import Idealize.ShloMosaic.PureOps.Ideal
import Idealize.ShloMosaic.Lib.ValueIdx
import Idealize.ShloMosaic.Lib.Pipeline.Value

noncomputable section

namespace Cert.RowBatch

open Idealize.ShloMosaic Idealize.ShloMosaic.ValueIdx

variable {α : Type}

/-- The matrix [N, n] made of an array [a, b, n] reads, at row R = p * b + s and lane k, the array at (p, s, k). -/
theorem flatten_rows {a b n N : ℕ} (x : (⟨3, ![a, b, n]⟩ : Shape).Idx → α)
    (h : (⟨3, ![a, b, n]⟩ : Shape).ShapeCasts ⟨2, ![N, n]⟩) (p : Fin a) (s : Fin b) (k : Fin n) (R : Fin N)
    (hR : R.val = p.val * b + s.val) : shapeCast ⟨2, ![N, n]⟩ x h (ix2 R k) = x (ix3 p s k) :=
  shapeCast_apply x h _ _ (by
    rw [Shape.rowMajor_val_two, Shape.rowMajor_val_three]
    show (p.val * b + s.val) * n + k.val = R.val * n + k.val
    rw [hR])

/-- The array [a, b, n] made of a matrix [N, n] reads, at (p, s, k), the matrix at row R = p * b + s and lane k. -/
theorem unflatten_rows {a b n N : ℕ} (x : (⟨2, ![N, n]⟩ : Shape).Idx → α)
    (h : (⟨2, ![N, n]⟩ : Shape).ShapeCasts ⟨3, ![a, b, n]⟩) (p : Fin a) (s : Fin b) (k : Fin n) (R : Fin N)
    (hR : R.val = p.val * b + s.val) : shapeCast ⟨3, ![a, b, n]⟩ x h (ix3 p s k) = x (ix2 R k) :=
  shapeCast_apply x h _ _ (by
    rw [Shape.rowMajor_val_two, Shape.rowMajor_val_three]
    show R.val * n + k.val = (p.val * b + s.val) * n + k.val
    rw [hR])

end Cert.RowBatch

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.BlockGate.lean ====
/-
  The block body's arithmetic at one row.

  The body forms, for each of the 32768 rows of a block, two projections of 64 lanes onto one column of weights
  (a matrix product with a one-column right factor, accumulated from zero), shifts each by its bias, adds them,
  passes the sum through the leaky rectifier, scales, shifts, applies the logistic function and multiplies by the
  second projection. Read at row r this is exactly the gate of the specification: the matrix product's entry (r, 0)
  is the finite sum Σ k, row k · w (k, 0), and every other operation acts entry by entry.
-/
import proofs.«176367_j90537910600269_1_alg».proof.Proof.Gen.KernelIdeal.Skeleton
import proofs.«176367_j90537910600269_1_alg».proof.Proof.GateSpec
import proofs.«176367_j90537910600269_1_alg».proof.Proof.LibDotRead
import Idealize.ShloMosaic.Lib.Pipeline.Value
import Idealize.ShloMosaic.Lib.ValueIdx
import Idealize.ShloMosaic.PureOps.Ideal.Laws

noncomputable section

namespace Cert.KernelIdeal.BlockGate

open Idealize.ShloMosaic Idealize.ShloMosaic.ValueIdx Cert.KernelIdeal Cert.KernelIdeal.Gen

/-- The body's product is a plain one: rows × 64 times 64 × 1, the second axis of the left factor contracted against
    the first axis of the right one, no batch axis. -/
theorem plain : Cert.DotRead.Plain (m := 32768) (n := 64) (p := 1) dot_S32768x64_S64x1_S32768x1_1_0_0_1_n_n where
  rank := rfl
  size := rfl
  lhs0 := fun i q => by
    unfold DotDims.lhsIdx
    rw [dif_neg (show ¬(0 : Fin S32768x64.rank) ∈ dot_S32768x64_S64x1_S32768x1_1_0_0_1_n_n.lhsBatch by decide),
      dif_pos (show (0 : Fin S32768x64.rank) ∈ dot_S32768x64_S64x1_S32768x1_1_0_0_1_n_n.lhsNonContracting by decide)]
    rfl
  lhs1 := fun i q => dot_S32768x64_S64x1_S32768x1_1_0_0_1_n_n.lhsIdx_val_of_single rfl i q
  rhs0 := fun i q => dot_S32768x64_S64x1_S32768x1_1_0_0_1_n_n.rhsIdx_val_of_single rfl i q
  rhs1 := fun i q => by
    unfold DotDims.rhsIdx
    rw [dif_neg (show ¬(1 : Fin S64x1.rank) ∈ dot_S32768x64_S64x1_S32768x1_1_0_0_1_n_n.rhsBatch by decide),
      dif_pos (show (1 : Fin S64x1.rank) ∈ dot_S32768x64_S64x1_S32768x1_1_0_0_1_n_n.rhsNonContracting by decide)]
    rfl

/-- The body's stored value at row r of a block is the gate of that row: with xa = Σ k, x0 (r, k) · wa (k, 0) + ba 0 and
    xs = Σ k, x1 (r, k) · ws (k, 0) + bs 0, it is logistic(leaky(xa + xs) · w2 (0, 0) + b2 0) · xs. -/
theorem pay_apply (v0 v2 : Vec Ideal S32768x64 .f32) (v4 : Vec Ideal S64x1 .f32) (v6 : Vec Ideal S1 .f32) (v10 : Vec Ideal S64x1 .f32)
    (v12 : Vec Ideal S1 .f32) (v22 : Vec Ideal S1x1 .f32) (v26 : Vec Ideal S1 .f32) (r : Fin 32768) (z : Fin 1) :
    k0_pay1 (F := Ideal) v0 v2 v4 v6 v10 v12 v22 v26 (ix2 r z) = Cert.Gate.rowGate v0 v2 v4 v6 v10 v12 v22 v26 r := by
  obtain rfl : z = 0 := Subsingleton.elim _ _
  -- the two products at entry (r, 0), as finite sums over the 64 lanes
  have ha := Cert.DotRead.matmul_zero_apply (φ₁ := .f32) (φ₂ := .f32) _ plain none v0 v4 r 0
  have hs := Cert.DotRead.matmul_zero_apply (φ₁ := .f32) (φ₂ := .f32) _ plain none v2 v10 r 0
  -- the extracted scalars are the single entries of the one-element vectors
  have e6 : extractAt ![0] v6 inpos_S1_p0 = v6 (ix1 0) :=
    congrArg v6 (funext fun a => by match a with | ⟨0, _⟩ => rfl)
  have e12 : extractAt ![0] v12 inpos_S1_p0 = v12 (ix1 0) :=
    congrArg v12 (funext fun a => by match a with | ⟨0, _⟩ => rfl)
  have e26 : extractAt ![0] v26 inpos_S1_p0 = v26 (ix1 0) :=
    congrArg v26 (funext fun a => by match a with | ⟨0, _⟩ => rfl)
  have e22 : extractAt ![0, 0] v22 inpos_S1x1_p0_0 = v22 (ix2 0 0) :=
    congrArg v22 (funext fun a => by match a with | ⟨0, _⟩ => rfl | ⟨1, _⟩ => rfl)
  -- every other operation acts entry by entry; a cast to the same shape is the identity
  unfold k0_pay1
  simp only [shapeCast_self, mulf_apply, addf_apply, cmpf_apply, select_apply, broadcast_apply, logistic]
  rw [ha, hs, e6, e12, e22, e26]
  -- what remains is the gate's expression tree on both sides
  rfl

end Cert.KernelIdeal.BlockGate

end
-- ==== Proof.ArrayGate.lean ====
/-
  From blocks to the whole array, and through the last reshape.

  The launch cuts the 1048576 rows into 32 blocks of 32768 consecutive rows: point t of the grid reads rows
  t · 32768 … t · 32768 + 32767 of the two flattened inputs, the small operands whole, and writes the same rows
  of the result column. A row's result depends on that row only, so block t of the result is block t of ONE
  function of the whole arrays (the flat specification); the blocks tile the column, hence the column is that
  function. Before the launch the inputs [64, 16384, 64] are re-read as [1048576, 64], row (p, l) becoming row
  p · 16384 + l; after it the column [1048576, 1] is re-read as [64, 16384, 1] by the same correspondence. So the
  program's result at (p, l) is the gate of row (p, l) of the original inputs: the batched specification.
-/
import proofs.«176367_j90537910600269_1_alg».proof.Proof.Gen.KernelIdeal.Frame
import proofs.«176367_j90537910600269_1_alg».proof.Proof.GateSpec
import proofs.«176367_j90537910600269_1_alg».proof.Proof.LibRowBatch
import proofs.«176367_j90537910600269_1_alg».proof.Proof.BlockGate
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.ArrayGate

open Cert.KernelIdeal Cert.KernelIdeal.Gen

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- What the body leaves in the output block is its one stored value: every load and the store go through the whole
    block at offset zero. -/
theorem out_eq (x0 x1 : Vec Ideal S32768x64 .f32) (x2 : Vec Ideal S64x1 .f32) (x3 : Vec Ideal S1 .f32) (x4 : Vec Ideal S64x1 .f32)
    (x5 : Vec Ideal S1 .f32) (x6 : Vec Ideal S1x1 .f32) (x7 : Vec Ideal S1 .f32) :
    out0_8 x0 x1 x2 x3 x4 x5 x6 x7 = k0_pay1 x0 x1 x2 x3 x4 x5 x6 x7 := by
  unfold out0_8
  rw [View.canon_unit_zero zeros2]
  simp only [View.ld_unit_zero (S := S32768x64) zeros2, View.ld_unit_zero (S := S64x1) zeros2,
    View.ld_unit_zero (S := S1) zeros1, View.ld_unit_zero (S := S1x1) zeros2]

/-- The block indices over the grid: the two row-blocked inputs and the output are at block t, lane block 0; the small
    operands always at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-! ## The blocks a point reads -/

/-- Block t of the first flattened input: its row r is row t · 32768 + r of the array. -/
theorem iblk0_apply (c : Dev nD) (t : Fin cfg0.N) (r : Fin 32768) (k : Fin 64) (R : Fin 1048576) (hR : R.val = t.val * 32768 + r.val) :
    (iblk m c 0 t : Vec Ideal S32768x64 .f32) (ix2 r k) = (V m c main_v0 : S1048576x64.Idx → EReal) (ix2 R k) := by
  obtain ⟨e0, e1, -⟩ := idx_facts t
  unfold iblk
  rw [View.read_apply]
  show V m c main_v0 (((cfg0.win 0).blk t).view.emb (ix2 r k)) = V m c main_v0 (ix2 R k)
  refine congrArg (V m c main_v0) (funext fun a => Fin.ext ?_)
  match a with
  | ⟨0, _⟩ => show win0_0.index t (0 : Fin 2) * 32768 + 1 * r.val = R.val; rw [e0, hR]; omega
  | ⟨1, _⟩ => show win0_0.index t (1 : Fin 2) * 64 + 1 * k.val = k.val; rw [e1]; omega

/-- Block t of the second flattened input, likewise. -/
theorem iblk1_apply (c : Dev nD) (t : Fin cfg0.N) (r : Fin 32768) (k : Fin 64) (R : Fin 1048576) (hR : R.val = t.val * 32768 + r.val) :
    (iblk m c 1 t : Vec Ideal S32768x64 .f32) (ix2 r k) = (V m c main_v1 : S1048576x64.Idx → EReal) (ix2 R k) := by
  obtain ⟨-, -, e0, e1, -⟩ := idx_facts t
  unfold iblk
  rw [View.read_apply]
  show V m c main_v1 (((cfg0.win 1).blk t).view.emb (ix2 r k)) = V m c main_v1 (ix2 R k)
  refine congrArg (V m c main_v1) (funext fun a => Fin.ext ?_)
  match a with
  | ⟨0, _⟩ => show win0_1.index t (0 : Fin 2) * 32768 + 1 * r.val = R.val; rw [e0, hR]; omega
  | ⟨1, _⟩ => show win0_1.index t (1 : Fin 2) * 64 + 1 * k.val = k.val; rw [e1]; omega

/-- The small operands are read whole at every point: their one block is the array. -/
theorem iblk2_eq (c : Dev nD) (t : Fin cfg0.N) : (iblk m c 2 t : Vec Ideal S64x1 .f32) = V m c main_arg2 := by
  obtain ⟨-, -, -, -, -, -, e0, e1, -⟩ := idx_facts t
  funext y
  unfold iblk
  rw [View.read_apply]
  show V m c main_arg2 (((cfg0.win 2).blk t).view.emb y) = V m c main_arg2 y
  refine congrArg (V m c main_arg2) (funext fun a => Fin.ext ?_)
  match a with
  | ⟨0, _⟩ => show win0_2.index t (0 : Fin 2) * 64 + 1 * (y 0).val = (y 0).val; rw [e0]; omega
  | ⟨1, _⟩ => show win0_2.index t (1 : Fin 2) * 1 + 1 * (y 1).val = (y 1).val; rw [e1]; omega
theorem iblk3_eq (c : Dev nD) (t : Fin cfg0.N) : (iblk m c 3 t : Vec Ideal S1 .f32) = V m c main_arg3 := by
  obtain ⟨-, -, -, -, -, -, -, -, e0, -⟩ := idx_facts t
  funext y
  unfold iblk
  rw [View.read_apply]
  show V m c main_arg3 (((cfg0.win 3).blk t).view.emb y) = V m c main_arg3 y
  refine congrArg (V m c main_arg3) (funext fun a => Fin.ext ?_)
  match a with
  | ⟨0, _⟩ => show win0_3.index t (0 : Fin 1) * 1 + 1 * (y 0).val = (y 0).val; rw [e0]; omega
theorem iblk4_eq (c : Dev nD) (t : Fin cfg0.N) : (iblk m c 4 t : Vec Ideal S64x1 .f32) = V m c main_arg4 := by
  obtain ⟨-, -, -, -, -, -, -, -, -, e0, e1, -⟩ := idx_facts t
  funext y
  unfold iblk
  rw [View.read_apply]
  show V m c main_arg4 (((cfg0.win 4).blk t).view.emb y) = V m c main_arg4 y
  refine congrArg (V m c main_arg4) (funext fun a => Fin.ext ?_)
  match a with
  | ⟨0, _⟩ => show win0_4.index t (0 : Fin 2) * 64 + 1 * (y 0).val = (y 0).val; rw [e0]; omega
  | ⟨1, _⟩ => show win0_4.index t (1 : Fin 2) * 1 + 1 * (y 1).val = (y 1).val; rw [e1]; omega
theorem iblk5_eq (c : Dev nD) (t : Fin cfg0.N) : (iblk m c 5 t : Vec Ideal S1 .f32) = V m c main_arg5 := by
  obtain ⟨-, -, -, -, -, -, -, -, -, -, -, e0, -⟩ := idx_facts t
  funext y
  unfold iblk
  rw [View.read_apply]
  show V m c main_arg5 (((cfg0.win 5).blk t).view.emb y) = V m c main_arg5 y
  refine congrArg (V m c main_arg5) (funext fun a => Fin.ext ?_)
  match a with
  | ⟨0, _⟩ => show win0_5.index t (0 : Fin 1) * 1 + 1 * (y 0).val = (y 0).val; rw [e0]; omega
theorem iblk6_eq (c : Dev nD) (t : Fin cfg0.N) : (iblk m c 6 t : Vec Ideal S1x1 .f32) = V m c main_arg6 := by
  obtain ⟨-, -, -, -, -, -, -, -, -, -, -, -, e0, e1, -⟩ := idx_facts t
  funext y
  unfold iblk
  rw [View.read_apply]
  show V m c main_arg6 (((cfg0.win 6).blk t).view.emb y) = V m c main_arg6 y
  refine congrArg (V m c main_arg6) (funext fun a => Fin.ext ?_)
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega
theorem iblk7_eq (c : Dev nD) (t : Fin cfg0.N) : (iblk m c 7 t : Vec Ideal S1 .f32) = V m c main_arg7 := by
  obtain ⟨-, -, -, -, -, -, -, -, -, -, -, -, -, -, e0⟩ := idx_facts t
  funext y
  unfold iblk
  rw [View.read_apply]
  show V m c main_arg7 (((cfg0.win 7).blk t).view.emb y) = V m c main_arg7 y
  refine congrArg (V m c main_arg7) (funext fun a => Fin.ext ?_)
  match a with
  | ⟨0, _⟩ => show win0_7.index t (0 : Fin 1) * 1 + 1 * (y 0).val = (y 0).val; rw [e0]; omega

/-! ## A point's block of the result is a block of the flat specification -/

/-- The array the region leaves in the result column: the flat specification of the arrays the region finds. -/
abbrev gateArr (c : Dev nD) : Buf (Elt Ideal) ((c : Thread nD τ).loc main_v2) :=
  Cert.Gate.flat (V m c main_v0) (V m c main_v1) (V m c main_arg2) (V m c main_arg3) (V m c main_arg4) (V m c main_arg5)
    (V m c main_arg6) (V m c main_arg7)

/-- Rows of a block against rows of the array: if the two input blocks are rows s, s + 1, … of the arrays, then row r of the
    block's gate is row s + r of the arrays' gate. -/
theorem rowGate_block (X0 X1 : FVec Ideal ⟨2, ![1048576, 64]⟩ .f32) (b0 b1 : FVec Ideal ⟨2, ![32768, 64]⟩ .f32)
    (wa : FVec Ideal ⟨2, ![64, 1]⟩ .f32) (ba : FVec Ideal ⟨1, ![1]⟩ .f32) (ws : FVec Ideal ⟨2, ![64, 1]⟩ .f32) (bs : FVec Ideal ⟨1, ![1]⟩ .f32)
    (w2 : FVec Ideal ⟨2, ![1, 1]⟩ .f32) (b2 : FVec Ideal ⟨1, ![1]⟩ .f32) (r : Fin 32768) (R : Fin 1048576)
    (h0 : ∀ k : Fin 64, b0 (ix2 r k) = X0 (ix2 R k)) (h1 : ∀ k : Fin 64, b1 (ix2 r k) = X1 (ix2 R k)) :
    Cert.Gate.rowGate b0 b1 wa ba ws bs w2 b2 r = Cert.Gate.rowGate X0 X1 wa ba ws bs w2 b2 R := by
  unfold Cert.Gate.rowGate
  rw [show (fun k => b0 (ix2 r k)) = fun k => X0 (ix2 R k) from funext h0,
    show (fun k => b1 (ix2 r k)) = fun k => X1 (ix2 R k) from funext h1]

/-- WHAT POINT t WRITES BACK is block t of the flat specification. -/
theorem flushed_eq (c : Dev nD) (t : Fin cfg0.N) :
    (dats m 0 c).flushed 8 t = ((cfg0.win 8).blk t).view.read (Elt Ideal) (gateArr m c) := by
  show (cfg0.win 8).cut (grid0.coords t) ((dats m 0 c).after 8 t) = _
  rw [after0_8, out_eq, iblk2_eq, iblk3_eq, iblk4_eq, iblk5_eq, iblk6_eq, iblk7_eq]
  obtain ⟨-, -, -, -, e0, e1, -⟩ := idx_facts t
  have ht : t.val < 32 := Nat.lt_of_lt_of_eq t.isLt N_0
  funext j
  show k0_pay1 (iblk m c 0 t) (iblk m c 1 t) (V m c main_arg2) (V m c main_arg3) (V m c main_arg4) (V m c main_arg5) (V m c main_arg6) (V m c main_arg7) j
    = gateArr m c (((cfg0.win 8).blk t).view.emb j)
  obtain ⟨r, z, rfl⟩ : ∃ (r : Fin 32768) (z : Fin 1), j = ix2 r z := ⟨j 0, j 1, eq_ix2 j⟩
  have hemb : ((cfg0.win 8).blk t).view.emb (ix2 r z) = ix2 (⟨t.val * 32768 + r.val, by omega⟩ : Fin 1048576) z := by
    funext a; apply Fin.ext
    match a with
    | ⟨0, _⟩ => show win0_8.index t (0 : Fin 2) * 32768 + 1 * r.val = t.val * 32768 + r.val; rw [e0]; omega
    | ⟨1, _⟩ => show win0_8.index t (1 : Fin 2) * 1 + 1 * z.val = z.val; rw [e1]; omega
  rw [hemb, Cert.KernelIdeal.BlockGate.pay_apply]
  show _ = Cert.Gate.flat _ _ _ _ _ _ _ _ (ix2 _ z)
  rw [Cert.Gate.flat_apply]
  exact rowGate_block _ _ _ _ _ _ _ _ _ _ r _ (fun k => iblk0_apply m c t r k _ rfl) (fun k => iblk1_apply m c t r k _ rfl)

/-! ## The blocks tile the column -/

/-- An index of the result column is in point t's block iff each coordinate is in the block's range on its axis. -/
theorem mem_blk (t : Fin cfg0.N) (i : S1048576x1.Idx) :
    i ∈ ((cfg0.win 8).blk t).view.set ↔ ∀ a : Fin 2, win0_8.index t a * S32768x1.size a ≤ (i a).val ∧ (i a).val < win0_8.index t a * S32768x1.size a + S32768x1.size a := by
  show i ∈ ((View.whole main_v2).slice (win0_8.rect t)).set ↔ _
  rw [View.set_slice_whole, Rect.mem_set_unit]
  exact Iff.rfl

/-- Row R lies in the block of point R / 32768, and every point writes its block back. -/
theorem cover (i : S1048576x1.Idx) : ∃ t : Fin cfg0.N, (cfg0.win 8).flush t = true ∧ i ∈ ((cfg0.win 8).blk t).view.set := by
  have hi0 : (i 0).val < 1048576 := (i 0).isLt
  have hi1 : (i 1).val < 1 := (i 1).isLt
  let t : Fin cfg0.N := ⟨(i 0).val / 32768, Nat.lt_of_lt_of_eq (by omega : (i 0).val / 32768 < 32) N_0.symm⟩
  have htv : t.val = (i 0).val / 32768 := rfl
  obtain ⟨-, -, -, -, e0, e1, -⟩ := idx_facts t
  refine ⟨t, flush0_8 t, ?_⟩
  rw [mem_blk]
  intro a
  match a with
  | ⟨0, _⟩ => show win0_8.index t (0 : Fin 2) * 32768 ≤ (i 0).val ∧ (i 0).val < win0_8.index t (0 : Fin 2) * 32768 + 32768; rw [e0, htv]; omega
  | ⟨1, _⟩ => show win0_8.index t (1 : Fin 2) * 1 ≤ (i 1).val ∧ (i 1).val < win0_8.index t (1 : Fin 2) * 1 + 1; rw [e1]; omega

/-- THE RESULT COLUMN after the region: the flat specification of the arrays the region finds. -/
theorem final (c : Dev nD) : (dats m 0 c).arrAt 8 cfg0.N = gateArr m c :=
  (dats m 0 c).arrAt_eq_of_cover 8 (gateArr m c) (fun t _ => flushed_eq m c t) cover

end Cert.KernelIdeal.ArrayGate

end
-- ==== Proof.KernelResult.lean ====
/-
  The kernel program's result, and its run.

  Around the launch the program only re-counts rows: the inputs [64, 16384, 64] are read as [1048576, 64] (row (p, l)
  is row p · 16384 + l), and the result column [1048576, 1] is read back as [64, 16384, 1] the same way. The launch
  leaves in the column the flat specification of the flattened inputs; following one row (p, l) through the two
  re-countings gives the batched specification of the original inputs.
-/
import proofs.«176367_j90537910600269_1_alg».proof.Proof.ArrayGate

noncomputable section

open Idealize.ShloMosaic Idealize.ShloMosaic.TcCoe Idealize.ShloMosaic.ValueIdx Idealize.SL.Sem
open Idealize.ShloMosaic.Pipeline (Dat)

namespace Cert.KernelIdeal.ArrayGate

open Cert.KernelIdeal Cert.KernelIdeal.Gen

variable (m : (ℓ : Loc nD τ sig) → Buf (Elt Ideal) ℓ) (ρ : Dev nD → PrngReg)

/-- The first input as the region finds it: the argument re-counted by one row coordinate. -/
theorem V_v0 (c : Dev nD) : (V m c main_v0 : S1048576x64.Idx → EReal)
    = shapeCast S1048576x64 (m ((c : Thread nD τ).loc main_arg0)) shapeCasts_S64x16384x64_S1048576x64 := by
  show StableHlo.after hostOps0 (fun b => m (c, b)) (Proc.devRef .tc main_v0) = _
  after_results
  rfl

/-- The second input likewise. -/
theorem V_v1 (c : Dev nD) : (V m c main_v1 : S1048576x64.Idx → EReal)
    = shapeCast S1048576x64 (m ((c : Thread nD τ).loc main_arg1)) shapeCasts_S64x16384x64_S1048576x64 := by
  show StableHlo.after hostOps0 (fun b => m (c, b)) (Proc.devRef .tc main_v1) = _
  after_results
  rfl

/-- The program's result: the column the region leaves, re-counted by two row coordinates. -/
theorem tail_eq (c : Dev nD) : Pipeline.afterTail₀ cfgs (dats m) 0 (V0 m) [hostOps1] c main_v3
    = shapeCast S64x16384x1 ((dats m 0 c).arrAt 8 cfg0.N) shapeCasts_S1048576x1_S64x16384x1 := by
  unfold Pipeline.afterTail₀
  show StableHlo.after hostOps1 _ (Proc.devRef .tc main_v3) = _
  after_results
  have hw := Pipeline.withArrays_arr spec0 launch0.win.arr_inj c (V0 m c) (fun w => (dats m 0 c).arrAt w cfg0.N) 8
  exact congrArg (fun A => shapeCast S64x16384x1 A shapeCasts_S1048576x1_S64x16384x1) hw

/-- Row (p, l) of the first input is row p · 16384 + l of what the region finds. -/
theorem V_v0_apply (c : Dev nD) (p : Fin 64) (l : Fin 16384) (k : Fin 64) (R : Fin 1048576) (hR : R.val = p.val * 16384 + l.val) :
    (V m c main_v0 : S1048576x64.Idx → EReal) (ix2 R k) = (m ((c : Thread nD τ).loc main_arg0) : S64x16384x64.Idx → EReal) (ix3 p l k) := by
  rw [V_v0]
  exact Cert.RowBatch.flatten_rows _ _ p l k R hR

theorem V_v1_apply (c : Dev nD) (p : Fin 64) (l : Fin 16384) (k : Fin 64) (R : Fin 1048576) (hR : R.val = p.val * 16384 + l.val) :
    (V m c main_v1 : S1048576x64.Idx → EReal) (ix2 R k) = (m ((c : Thread nD τ).loc main_arg1) : S64x16384x64.Idx → EReal) (ix3 p l k) := by
  rw [V_v1]
  exact Cert.RowBatch.flatten_rows _ _ p l k R hR

/-- THE PROGRAM'S RESULT is the batched specification of its arguments. -/
theorem result_eq (c : Dev nD) : Pipeline.afterTail₀ cfgs (dats m) 0 (V0 m) [hostOps1] c main_v3
    = Cert.Gate.batched (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [tail_eq, final]
  funext i
  obtain ⟨p, l, z, rfl⟩ : ∃ (p : Fin 64) (l : Fin 16384) (z : Fin 1), i = ix3 p l z := ⟨i 0, i 1, i 2, eq_ix3 i⟩
  have hp : p.val < 64 := p.isLt
  have hl : l.val < 16384 := l.isLt
  rw [Cert.Gate.batched_apply,
    Cert.RowBatch.unflatten_rows (gateArr m c) shapeCasts_S1048576x1_S64x16384x1 p l z (⟨p.val * 16384 + l.val, by omega⟩ : Fin 1048576) rfl]
  show Cert.Gate.flat _ _ _ _ _ _ _ _ (ix2 _ z) = _
  rw [Cert.Gate.flat_apply]
  unfold Cert.Gate.rowGate
  rw [V_main_arg2, V_main_arg3, V_main_arg4, V_main_arg5, V_main_arg6, V_main_arg7,
    show (fun k => (V m c main_v0 : S1048576x64.Idx → EReal) (ix2 (⟨p.val * 16384 + l.val, by omega⟩ : Fin 1048576) k))
      = fun k => (m ((c : Thread nD τ).loc main_arg0) : S64x16384x64.Idx → EReal) (ix3 p l k) from funext fun k => V_v0_apply m c p l k _ rfl,
    show (fun k => (V m c main_v1 : S1048576x64.Idx → EReal) (ix2 (⟨p.val * 16384 + l.val, by omega⟩ : Fin 1048576) k))
      = fun k => (m ((c : Thread nD τ).loc main_arg1) : S64x16384x64.Idx → EReal) (ix3 p l k) from funext fun k => V_v1_apply m c p l k _ rfl]

/-- THE RUN: every weakly fair execution of the program ends with its result at the batched specification of the
    arguments, and the arguments as they were. -/
theorem run : θ_run defs (onTc (τ := τ) (main (F := Ideal))) ⟨m, fun _ => 0, ρ⟩ fun r => ∀ c : Dev nD,
      r.2.mem ((c.tc : Thread nD τ).loc main_v3)
        = Cert.Gate.batched (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.ArrayGate

end
-- ==== Proof.RefGate.lean ====
/-
  The reference computes the gated projection, entry by entry.

  Reading the reference's result at row (p, l) (the third coordinate z ranges over one value) and following its
  operations back to the arguments gives exactly the expression of the specification:

    xa = Σ k, x0 (p, l, k) · x2 (k, 0) + x3 0          xs = Σ k, x1 (p, l, k) · x4 (k, 0) + x5 0
    h  = xa + xs,   leaky h = h where 0 ≤ h, else 0.3f · h
    result = 1 / (1 + exp (−(leaky h · x6 (0, 0) + x7 0))) · xs = logistic (leaky h · x6 (0, 0) + x7 0) · xs.

  Three small facts carry the reading. A contraction over the last axis of row (p, l) against a one-column matrix
  meets lane k of the row and entry (k, 0) of the column, because the column coordinate z < 1 is 0. An array with a
  single entry, viewed as a scalar, is that entry: all of its indices coincide. The word 0x3F800000 is the number 1,
  so the quotient 1 / (1 + exp (−y)) the reference spells is the logistic function of y. The words for 0 and for 0.3f
  are the same on both sides and are never evaluated.
-/
import proofs.«176367_j90537910600269_1_alg».proof.Proof.Gen.ReferenceIdeal.Read
import proofs.«176367_j90537910600269_1_alg».proof.Proof.GateSpec

noncomputable section

namespace Cert.ReferenceIdeal.RefGate

open Idealize.ShloMosaic Idealize.ShloMosaic.ValueIdx Cert.ReferenceIdeal Cert.ReferenceIdeal.Read

/-- The weight x6 has the single entry (0, 0); seen as a scalar it is that entry, since every index of a 1 × 1 array
    has both coordinates below 1. -/
theorem v14_apply (x6 : (⟨S1x1, .f32⟩ : BufTy).Contents (Elt Ideal)) (j : S_.Idx) :
    val_main_v14 (F := Ideal) x6 j = x6 (ix2 0 0) := by
  unfold val_main_v14 shapeCast
  refine congrArg x6 (funext fun a => Fin.ext ?_)
  match a with
  | ⟨0, _⟩ => exact Nat.lt_one_iff.mp (Fin.isLt _)
  | ⟨1, _⟩ => exact Nat.lt_one_iff.mp (Fin.isLt _)

/-- Likewise the bias x7 has the single entry 0. -/
theorem v17_apply (x7 : (⟨S1, .f32⟩ : BufTy).Contents (Elt Ideal)) (j : S_.Idx) :
    val_main_v17 (F := Ideal) x7 j = x7 (ix1 0) := by
  unfold val_main_v17 shapeCast
  refine congrArg x7 (funext fun a => Fin.ext ?_)
  match a with
  | ⟨0, _⟩ => exact Nat.lt_one_iff.mp (Fin.isLt _)

/-- The single-precision word 0x3F800000 (sign 0, biased exponent 127, fraction 0) is 2⁰ · 1 = 1. -/
theorem one_word : Ideal.ofBits .f32 0x3F800000#32 = 1 := by
  simp [Ideal.ofBits, Ideal.ieee, -EReal.coe_mul]; norm_num

/-- The left operand's entry met by the k-th term of the projection of row (p, l): lane k of that row. -/
theorem lidx0 (p : Fin 64) (l : Fin 16384) (z : Fin 1) (k : Fin 64) : lidx_main_v0 (ix3 p l z) k = ix3 p l k :=
  funext fun a => by match a with | ⟨0, _⟩ => rfl | ⟨1, _⟩ => rfl | ⟨2, _⟩ => rfl

/-- The right operand's entry met by the k-th term: row k of the one column (the column coordinate z < 1 is 0). -/
theorem ridx0 (p : Fin 64) (l : Fin 16384) (z : Fin 1) (k : Fin 64) : ridx_main_v0 (ix3 p l z) k = ix2 k 0 :=
  funext fun a => by
    match a with
    | ⟨0, _⟩ => rfl
    | ⟨1, _⟩ => exact Fin.ext (Nat.lt_one_iff.mp z.isLt)

/-- The same two facts for the second projection. -/
theorem lidx4 (p : Fin 64) (l : Fin 16384) (z : Fin 1) (k : Fin 64) : lidx_main_v4 (ix3 p l z) k = ix3 p l k :=
  funext fun a => by match a with | ⟨0, _⟩ => rfl | ⟨1, _⟩ => rfl | ⟨2, _⟩ => rfl

theorem ridx4 (p : Fin 64) (l : Fin 16384) (z : Fin 1) (k : Fin 64) : ridx_main_v4 (ix3 p l z) k = ix2 k 0 :=
  funext fun a => by
    match a with
    | ⟨0, _⟩ => rfl
    | ⟨1, _⟩ => exact Fin.ext (Nat.lt_one_iff.mp z.isLt)

/-- A one-entry bias spread over every row is read at its entry 0. -/
theorem bidx1 (j : S1x1x1.Idx) : idx_main_v1 j = ix1 0 :=
  funext fun a => by match a with | ⟨0, _⟩ => rfl

theorem bidx5 (j : S1x1x1.Idx) : idx_main_v5 j = ix1 0 :=
  funext fun a => by match a with | ⟨0, _⟩ => rfl

/-- The first projection of row (p, l): Σ k, x0 (p, l, k) · x2 (k, 0) + x3 0. -/
theorem v3_eq (x0 : (⟨S64x16384x64, .f32⟩ : BufTy).Contents (Elt Ideal)) (x2 : (⟨S64x1, .f32⟩ : BufTy).Contents (Elt Ideal))
    (x3 : (⟨S1, .f32⟩ : BufTy).Contents (Elt Ideal)) (p : Fin 64) (l : Fin 16384) (z : Fin 1) :
    val_main_v3 (F := Ideal) x0 x2 x3 (ix3 p l z) = Cert.Gate.proj (fun k => x0 (ix3 p l k)) x2 x3 := by
  rw [val_main_v3_apply, val_main_v0_apply, val_main_v2_apply, val_main_v1_apply, bidx1]
  simp only [lidx0, ridx0]
  rfl

/-- The second projection of row (p, l): Σ k, x1 (p, l, k) · x4 (k, 0) + x5 0. -/
theorem v7_eq (x1 : (⟨S64x16384x64, .f32⟩ : BufTy).Contents (Elt Ideal)) (x4 : (⟨S64x1, .f32⟩ : BufTy).Contents (Elt Ideal))
    (x5 : (⟨S1, .f32⟩ : BufTy).Contents (Elt Ideal)) (p : Fin 64) (l : Fin 16384) (z : Fin 1) :
    val_main_v7 (F := Ideal) x1 x4 x5 (ix3 p l z) = Cert.Gate.proj (fun k => x1 (ix3 p l k)) x4 x5 := by
  rw [val_main_v7_apply, val_main_v4_apply, val_main_v6_apply, val_main_v5_apply, bidx5]
  simp only [lidx4, ridx4]
  rfl

/-- The reference's result is the specification counted by two row coordinates. At row (p, l) every elementwise
    stage is read at that row, the two projections are xa and xs above, the scalars are x6 (0, 0) and x7 0, and
    1 / (1 + exp (−y)) is logistic y once the word for 1 is read as 1. -/
theorem ref_eq (x0 x1 : (⟨S64x16384x64, .f32⟩ : BufTy).Contents (Elt Ideal)) (x2 : (⟨S64x1, .f32⟩ : BufTy).Contents (Elt Ideal))
    (x3 : (⟨S1, .f32⟩ : BufTy).Contents (Elt Ideal)) (x4 : (⟨S64x1, .f32⟩ : BufTy).Contents (Elt Ideal)) (x5 : (⟨S1, .f32⟩ : BufTy).Contents (Elt Ideal))
    (x6 : (⟨S1x1, .f32⟩ : BufTy).Contents (Elt Ideal)) (x7 : (⟨S1, .f32⟩ : BufTy).Contents (Elt Ideal)) :
    val_main_v26 (F := Ideal) x0 x1 x2 x3 x4 x5 x6 x7 = Cert.Gate.batched x0 x1 x2 x3 x4 x5 x6 x7 := by
  funext i
  obtain ⟨p, l, z, rfl⟩ : ∃ (p : Fin 64) (l : Fin 16384) (z : Fin 1), i = ix3 p l z := ⟨i 0, i 1, i 2, eq_ix3 i⟩
  rw [Cert.Gate.batched_apply]
  rw [val_main_v26_apply, val_main_v25_apply, val_main_v24_apply, val_main_cst_2_apply, val_main_v23_apply,
    val_main_v22_apply, val_main_cst_1_apply, val_main_v21_apply, val_main_v20_apply, val_main_v19_apply,
    val_main_v18_apply, v17_apply, val_main_v16_apply, val_main_v15_apply, v14_apply, val_main_v13_apply,
    val_main_v12_apply, val_main_v11_apply, val_main_cst_0_apply, val_main_v10_apply, val_main_v9_apply,
    val_main_cst_apply, val_main_v8_apply, v3_eq, v7_eq]
  rw [show FloatOps.ofBits (F := Ideal) .f32 0x3F800000#32 = 1 from one_word]
  rfl

end Cert.ReferenceIdeal.RefGate

end
-- ==== Proof.lean ====
/-
  The certificate: a gated projection computed block by block equals its whole-array reference.

  Two inputs hold 64 × 16384 rows of 64 lanes. Per row, each input is projected onto one column of weights and shifted
  by a bias (xa from the first, xs from the second); the gate logistic(leaky(xa + xs) · w2 + b2), with
  leaky(h) = h where 0 ≤ h and 0.3f · h otherwise, multiplies xs. The kernel flattens the rows to one coordinate, cuts
  them into 32 blocks of 32768 rows, computes each block's rows from that block's rows (a product with a one-column
  matrix accumulated from zero, then entrywise operations and the logistic function), and reads the result column
  back as [64, 16384, 1]. The reference contracts the last axis of the unflattened inputs, spreads the one-entry
  biases and scalars over all rows, and spells the logistic function as 1 / (1 + exp (−y)).

  On the extended reals both are, entry by entry, the same expression of the same row (Proof/GateSpec.lean): a product
  into a zero accumulator and a contraction are the same finite sum over the 64 lanes, the flattening only renames
  row (p, l) as row p · 16384 + l, the word for 1 is 1, and the words for 0 and 0.3f are shared. No law of arithmetic
  beyond this reading is used, so the inputs' finiteness is never consulted.

  The kernel's side is Proof/BlockGate.lean (one row of a block), Proof/ArrayGate.lean (the blocks tile the column)
  and Proof/KernelResult.lean (the two re-countings and the run); the reference's side is Proof/RefGate.lean over its
  generated run. The three programs' runs without faults and with unchanged arguments are the generated frame
  certificates, and the reference's is its run with the result dropped. The idealized kernel is the kernel's own
  text read at the ideal instance: nothing was rewritten, so there is nothing to preserve.
-/
import proofs.«176367_j90537910600269_1_alg».proof.Defs
import proofs.«176367_j90537910600269_1_alg».proof.Proof.Gen.Kernel
import proofs.«176367_j90537910600269_1_alg».proof.Proof.Gen.Kernel.Skeleton
import proofs.«176367_j90537910600269_1_alg».proof.Proof.Gen.Kernel.Launch
import proofs.«176367_j90537910600269_1_alg».proof.Proof.Gen.Kernel.Points
import proofs.«176367_j90537910600269_1_alg».proof.Proof.Gen.Kernel.Frame
import proofs.«176367_j90537910600269_1_alg».proof.Proof.Gen.KernelIdeal
import proofs.«176367_j90537910600269_1_alg».proof.Proof.Gen.KernelIdeal.Skeleton
import proofs.«176367_j90537910600269_1_alg».proof.Proof.Gen.KernelIdeal.Launch
import proofs.«176367_j90537910600269_1_alg».proof.Proof.Gen.KernelIdeal.Points
import proofs.«176367_j90537910600269_1_alg».proof.Proof.Gen.KernelIdeal.Frame
import proofs.«176367_j90537910600269_1_alg».proof.Proof.Gen.ReferenceIdeal
import proofs.«176367_j90537910600269_1_alg».proof.Proof.Gen.Pre_finite_inputs
import proofs.«176367_j90537910600269_1_alg».proof.Proof.Gen.ReferenceIdeal.Run
import proofs.«176367_j90537910600269_1_alg».proof.Proof.Gen.ReferenceIdeal.Read
import proofs.«176367_j90537910600269_1_alg».proof.Proof.KernelResult
import proofs.«176367_j90537910600269_1_alg».proof.Proof.RefGate
import Idealize.ShloMosaic.Adequacy
import Idealize.ShloMosaic.Init

noncomputable section

namespace Cert.Proof

open Idealize.ShloMosaic Idealize.SL.Sem

/-- The word-level kernel runs without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both programs end with the batched specification of their (agreeing) arguments. -/
theorem algebraic : Cert.algebraic_KernelIdeal_ReferenceIdeal := by
  intro m ρ m' ρ' _ hagree
  refine ⟨_, Cert.KernelIdeal.ArrayGate.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v26_eq, Cert.ReferenceIdeal.RefGate.ref_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
